-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x512 : Shape := ⟨3, ![32, 64, 512]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S32x64x512 : S_.BroadcastsInDim S32x64x512 (![] : Fin 0 → Fin S32x64x512.rank)
  reducesTo_S32x64x512_S_d0_1_2 : S32x64x512.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S32x64x512 .f32) (main_arg1 : FVec F S32x64x512 .f32) (main_arg2 : FVec F S1024x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S32x64x512 .f32 := Host.absf main_arg0
  let main_cst : FVec F S_ .f32 := constant S_ .f32 0x7F800000#32
  let main_v1 : FVec F S32x64x512 .f32 := broadcastInDim S32x64x512 ![] bcast_S_S32x64x512 main_cst
  let main_v2 : IVec S32x64x512 1 := cmpf .olt main_v0 main_v1
  let main_c : IVec S_ 1 := constantI S_ 1 1#1
  let main_v3 : IVec S_ 1 := (fun x v => Host.reduce IntOp.andi x v reducesTo_S32x64x512_S_d0_1_2 h_S_) main_v2 main_c
  let main_v4 : FVec F S32x64x512 .f32 := Host.absf main_arg1
  let main_cst_0 : FVec F S_ .f32 := constant S_ .f32 0x7F800000#32
  let main_v5 : FVec F S32x64x512 .f32 := broadcastInDim S32x64x512 ![] bcast_S_S32x64x512 main_cst_0
  let main_v6 : IVec S32x64x512 1 := cmpf .olt main_v4 main_v5
  let main_c_1 : IVec S_ 1 := constantI S_ 1 1#1
  let main_v7 : IVec S_ 1 := (fun x v => Host.reduce IntOp.andi x v reducesTo_S32x64x512_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S32x64x512 : Shape := ⟨3, ![32, 64, 512]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S512x256 : Shape := ⟨2, ![512, 256]⟩
abbrev S1x256 : Shape := ⟨2, ![1, 256]⟩
abbrev S1x1 : Shape := ⟨2, ![1, 1]⟩
abbrev S32x1 : Shape := ⟨2, ![32, 1]⟩
abbrev S8x64x512 : Shape := ⟨3, ![8, 64, 512]⟩
abbrev S8x1 : Shape := ⟨2, ![8, 1]⟩
abbrev S8x512 : Shape := ⟨2, ![8, 512]⟩
abbrev S8x256 : Shape := ⟨2, ![8, 256]⟩

abbrev nBuf : Space → Nat
  | .hbm => 14
  | .vmem => 13
  | .smem => 0
  | _ => 0

abbrev bufTy : (tb : Table) → Fin (tcTables nBuf tb) → BufTy
  | .hbm, ⟨0, _⟩ => ⟨S32x64x512, .f32⟩
  | .hbm, ⟨1, _⟩ => ⟨S32x64x512, .f32⟩
  | .hbm, ⟨2, _⟩ => ⟨S1024x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S512x256, .f32⟩
  | .hbm, ⟨9, _⟩ => ⟨S512x256, .f32⟩
  | .hbm, ⟨10, _⟩ => ⟨S1x256, .f32⟩
  | .hbm, ⟨11, _⟩ => ⟨S1x256, .f32⟩
  | .hbm, ⟨12, _⟩ => ⟨S1x1, .f32⟩
  | .hbm, ⟨13, _⟩ => ⟨S32x1, .f32⟩
  | .local _ .vmem, ⟨0, _⟩ => ⟨S8x64x512, .f32⟩
  | .local _ .vmem, ⟨1, _⟩ => ⟨S8x64x512, .f32⟩
  | .local _ .vmem, ⟨2, _⟩ => ⟨S8x64x512, .f32⟩
  | .local _ .vmem, ⟨3, _⟩ => ⟨S8x64x512, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x1, .f32⟩
  | .local _ .vmem, ⟨10, _⟩ => ⟨S1x1, .f32⟩
  | .local _ .vmem, ⟨11, _⟩ => ⟨S8x1, .f32⟩
  | .local _ .vmem, ⟨12, _⟩ => ⟨S8x1, .f32⟩
  | _, _ => ⟨S32x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S1024x256_S512x256_0_0 : S1024x256.Slices ![0, 0] S512x256
  slices_S1024x256_S512x256_512_0 : S1024x256.Slices ![512, 0] S512x256
  shapeCasts_S256_S1x256 : S256.ShapeCasts S1x256
  shapeCasts_S1_S1x1 : S1.ShapeCasts S1x1
  inb_S8x64x512_S8x64x512_0_0_0 : ∀ a, (![0, 0, 0] : Fin 3 → Nat) a + S8x64x512.size a ≤ S8x64x512.size a
  h_S8x64x512 : 0 < S8x64x512.numel
  reduces_S8x64x512_S8x512 : S8x64x512.Reduces [1] S8x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  dot_S8x512_S512x256_S8x256_1_0_0_1_n_n_wf : DotDims.WF S8x512 S512x256 S8x256 [1] [0] [0] [1] [] []
  dot_S8x256_S256x256_S8x256_1_0_0_1_n_n_wf : DotDims.WF S8x256 S256x256 S8x256 [1] [0] [0] [1] [] []
  dot_S8x256_S256x1_S8x1_1_0_0_1_n_n_wf : DotDims.WF S8x256 S256x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x512.size a ≤ S32x64x512.size a
  hwx0_0 : ∀ i : grid0.Coords, EltTy.bits .f32 = 32 ∨ (Rect.block (s := S32x64x512) S8x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x512.size a ≤ S32x64x512.size a
  hwx0_1 : ∀ i : grid0.Coords, EltTy.bits .f32 = 32 ∨ (Rect.block (s := S32x64x512) S8x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1.size a ≤ S32x1.size a
  hwx0_9 : ∀ i : grid0.Coords, EltTy.bits .f32 = 32 ∨ (Rect.block (s := S32x1) S8x1.size (cc0_transform_9 i) (hinb0_9 i)).WholeWords (EltTy.packing .f32)

variable [Facts₀]

def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x1_S8x1_1_0_0_1_n_n : DotDims S8x256 S256x1 S8x1 where
  lhsContracting := [1]
  rhsContracting := [0]
  lhsNonContracting := [0]
  rhsNonContracting := [1]
  lhsBatch := []
  rhsBatch := []
  wf := dot_S8x256_S256x1_S8x1_1_0_0_1_n_n_wf

abbrev win0_0 : Pipeline.Window sig grid0 :=
  Pipeline.Window.ofSpec (Memref.whole main_arg0) S8x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S8x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x64x512 : Shape := ⟨3, ![32, 64, 512]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S32x64x1x512 : Shape := ⟨4, ![32, 64, 1, 512]⟩
abbrev S32x64x64x512 : Shape := ⟨4, ![32, 64, 64, 512]⟩
abbrev S32x4096x512 : Shape := ⟨3, ![32, 4096, 512]⟩
abbrev S32x1x64x512 : Shape := ⟨4, ![32, 1, 64, 512]⟩
abbrev S32x4096x1024 : Shape := ⟨3, ![32, 4096, 1024]⟩
abbrev S32x4096x256 : Shape := ⟨3, ![32, 4096, 256]⟩
abbrev S1x1x256 : Shape := ⟨3, ![1, 1, 256]⟩
abbrev S_ : Shape := ⟨0, ![]⟩
abbrev S32x256 : Shape := ⟨2, ![32, 256]⟩
abbrev S1x256 : Shape := ⟨2, ![1, 256]⟩
abbrev S32x1 : Shape := ⟨2, ![32, 1]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x64x512, .f32⟩
  | .hbm, ⟨1, _⟩ => ⟨S32x64x512, .f32⟩
  | .hbm, ⟨2, _⟩ => ⟨S1024x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S32x64x1x512, .f32⟩
  | .hbm, ⟨9, _⟩ => ⟨S32x64x64x512, .f32⟩
  | .hbm, ⟨10, _⟩ => ⟨S32x4096x512, .f32⟩
  | .hbm, ⟨11, _⟩ => ⟨S32x1x64x512, .f32⟩
  | .hbm, ⟨12, _⟩ => ⟨S32x64x64x512, .f32⟩
  | .hbm, ⟨13, _⟩ => ⟨S32x4096x512, .f32⟩
  | .hbm, ⟨14, _⟩ => ⟨S32x4096x1024, .f32⟩
  | .hbm, ⟨15, _⟩ => ⟨S32x4096x256, .f32⟩
  | .hbm, ⟨16, _⟩ => ⟨S1x1x256, .f32⟩
  | .hbm, ⟨17, _⟩ => ⟨S32x4096x256, .f32⟩
  | .hbm, ⟨18, _⟩ => ⟨S32x4096x256, .f32⟩
  | .hbm, ⟨19, _⟩ => ⟨S_, .f32⟩
  | .hbm, ⟨20, _⟩ => ⟨S32x256, .f32⟩
  | .hbm, ⟨21, _⟩ => ⟨S_, .f32⟩
  | .hbm, ⟨22, _⟩ => ⟨S32x256, .f32⟩
  | .hbm, ⟨23, _⟩ => ⟨S32x256, .f32⟩
  | .hbm, ⟨24, _⟩ => ⟨S32x256, .f32⟩
  | .hbm, ⟨25, _⟩ => ⟨S1x256, .f32⟩
  | .hbm, ⟨26, _⟩ => ⟨S32x256, .f32⟩
  | .hbm, ⟨27, _⟩ => ⟨S32x256, .f32⟩
  | .hbm, ⟨28, _⟩ => ⟨S32x1, .f32⟩
  | .hbm, ⟨29, _⟩ => ⟨S1x1, .f32⟩
  | .hbm, ⟨30, _⟩ => ⟨S32x1, .f32⟩
  | .hbm, ⟨31, _⟩ => ⟨S32x1, .f32⟩
  | .hbm, ⟨32, _⟩ => ⟨S32x1, .f32⟩
  | .hbm, ⟨33, _⟩ => ⟨S32x1, .f32⟩
  | .hbm, ⟨34, _⟩ => ⟨S_, .f32⟩
  | .hbm, ⟨35, _⟩ => ⟨S32x1, .f32⟩
  | .hbm, ⟨36, _⟩ => ⟨S32x1, .f32⟩
  | .hbm, ⟨37, _⟩ => ⟨S_, .f32⟩
  | .hbm, ⟨38, _⟩ => ⟨S32x1, .f32⟩
  | .hbm, ⟨39, _⟩ => ⟨S32x1, .f32⟩
  | _, _ => ⟨S32x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S32x64x512_S32x64x1x512_0_1_3 : S32x64x512.BroadcastsInDim S32x64x1x512 (![0, 1, 3] : Fin 3 → Fin S32x64x1x512.rank)
  bcast_S32x64x1x512_S32x64x64x512_0_1_2_3 : S32x64x1x512.BroadcastsInDim S32x64x64x512 (![0, 1, 2, 3] : Fin 4 → Fin S32x64x64x512.rank)
  shapeCasts_S32x64x64x512_S32x4096x512 : S32x64x64x512.ShapeCasts S32x4096x512
  bcast_S32x64x512_S32x1x64x512_0_2_3 : S32x64x512.BroadcastsInDim S32x1x64x512 (![0, 2, 3] : Fin 3 → Fin S32x1x64x512.rank)
  bcast_S32x1x64x512_S32x64x64x512_0_1_2_3 : S32x1x64x512.BroadcastsInDim S32x64x64x512 (![0, 1, 2, 3] : Fin 4 → Fin S32x64x64x512.rank)
  concatenates_S32x4096x512_S32x4096x512_S32x4096x1024_d2 : Shape.Concatenates [S32x4096x512, S32x4096x512] S32x4096x1024 2
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  reducesTo_S32x4096x256_S32x256_d1 : S32x4096x256.ReducesTo [1] S32x256
  h_S_ : 0 < S_.numel
  bcast_S_S32x256 : S_.BroadcastsInDim S32x256 (![] : Fin 0 → Fin S32x256.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  bcast_S_S32x1 : S_.BroadcastsInDim S32x1 (![] : Fin 0 → Fin S32x1.rank)
  dot_S32x4096x1024_S1024x256_S32x4096x256_2_0_01_1_n_n_wf : DotDims.WF S32x4096x1024 S1024x256 S32x4096x256 [2] [0] [0, 1] [1] [] []
  dot_S32x256_S256x256_S32x256_1_0_0_1_n_n_wf : DotDims.WF S32x256 S256x256 S32x256 [1] [0] [0] [1] [] []
  dot_S32x256_S256x1_S32x1_1_0_0_1_n_n_wf : DotDims.WF S32x256 S256x1 S32x1 [1] [0] [0] [1] [] []

variable [Facts₀]

def dot_S32x4096x1024_S1024x256_S32x4096x256_2_0_01_1_n_n : DotDims S32x4096x1024 S1024x256 S32x4096x256 where
  lhsContracting := [2]
  rhsContracting := [0]
  lhsNonContracting := [0, 1]
  rhsNonContracting := [1]
  lhsBatch := []
  rhsBatch := []
  wf := dot_S32x4096x1024_S1024x256_S32x4096x256_2_0_01_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x256_S256x1_S32x1_1_0_0_1_n_n : DotDims S32x256 S256x1 S32x1 where
  lhsContracting := [1]
  rhsContracting := [0]
  lhsNonContracting := [0]
  rhsNonContracting := [1]
  lhsBatch := []
  rhsBatch := []
  wf := dot_S32x256_S256x1_S32x1_1_0_0_1_n_n_wf

class Facts : Prop extends Facts₀ where

variable [Facts]
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.PairSpec.lean ====
/-
  The relation network's pooled pair feature in its two arrangements, and the law that joins them.

  For one batch row let A, B : 64 × 512 be the two object sets, W1, W2 : 512 the two halves of one column of the
  pair weight, and c the bias entry. The network averages, over all 64 · 64 ordered pairs (i, j), the affine map of
  the concatenated pair:
      (0 + Σ_{(i,j)} ((Σ_d A i d · W1 d + Σ_d B j d · W2 d) + c)) / 4096                       (`pairwise`).
  Since each summand is constant along the axis it does not depend on, and the average is linear, this is the
  affine map of the two object averages:
      (Σ_d ((Σ_i A i d) / 64) · W1 d + Σ_d ((Σ_j B j d) / 64) · W2 d) + c                      (`pooled`).
  Over the extended reals the identity needs every entry to be a real number: it moves a factor across a sum and
  cancels 64 · 64 against 4096, both of which fail at the infinities. With real entries it is an identity of real
  arithmetic (`pooled_eq_pairwise`).

  What follows the pooled feature — two affine layers and the logistic function — is one expression of the pooled
  row on both sides (`headRow`), so nothing beyond the law above is needed to join them.
-/
import Mathlib
import Idealize.ShloMosaic.PureOps.Ideal
import proofs.«135319_j42434276884668_2_alg».proof.Proof.LibRealSum

noncomputable section

open scoped BigOperators

namespace Cert.RelNet

open Idealize.ShloMosaic Cert.LibRealSum

/-! ## The float patterns the two programs spell -/

theorem ofBits_zero : Ideal.ofBits .f32 0x00000000#32 = 0 := by
  simp [Ideal.ofBits, Ideal.ieee]

theorem ofBits_64 : Ideal.ofBits .f32 0x42800000#32 = ((64 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

/-! ## The two arrangements -/

/-- The affine map of the two object averages: average first, project after. -/
def pooled (A B : Fin 64 → Fin 512 → EReal) (W1 W2 : Fin 512 → EReal) (c : EReal) : EReal :=
  ((∑ d : Fin 512, Ideal.div (∑ i : Fin 64, A i d) (Ideal.ofBits .f32 0x42800000#32) * W1 d)
    + (∑ d : Fin 512, Ideal.div (∑ j : Fin 64, B j d) (Ideal.ofBits .f32 0x42800000#32) * W2 d)) + c

/-- The average over all ordered pairs of the affine map of the pair: project first, average after. -/
def pairwise (A B : Fin 64 → Fin 512 → EReal) (W1 W2 : Fin 512 → EReal) (c : EReal) : EReal :=
  Ideal.div (Ideal.ofBits .f32 0x00000000#32
      + ∑ x : Fin 64 × Fin 64, (((∑ d : Fin 512, A x.1 d * W1 d) + (∑ d : Fin 512, B x.2 d * W2 d)) + c))
    (Ideal.ofBits .f32 0x45800000#32)

/-- The two dense layers and the logistic function applied to one pooled row `g`. -/
def headRow (g : Fin 256 → EReal) (Wf1 : Fin 256 → Fin 256 → EReal) (bf1 : Fin 256 → EReal) (Wf2 : Fin 256 → EReal)
    (bf2 : EReal) : EReal :=
  Ideal.logistic ((∑ q : Fin 256, ((∑ k : Fin 256, g k * Wf1 k q) + bf1 q) * Wf2 q) + bf2)

/-! ## The law, over the reals -/

/-- Real arithmetic: the average over the 64 · 64 pairs of `S1 i + S2 j + c` is the sum of the two averages plus `c`,
    and an average of inner products is the inner product of the average. -/
theorem real_pooled_eq_pairwise (a b : Fin 64 → Fin 512 → ℝ) (w1 w2 : Fin 512 → ℝ) (c : ℝ) :
    ((∑ d : Fin 512, (∑ i : Fin 64, a i d) * (1 / 64) * w1 d) + (∑ d : Fin 512, (∑ j : Fin 64, b j d) * (1 / 64) * w2 d)) + c
      = (0 + ∑ x : Fin 64 × Fin 64, (((∑ d : Fin 512, a x.1 d * w1 d) + (∑ d : Fin 512, b x.2 d * w2 d)) + c)) * (1 / 4096) := by
  have h1 : ∀ (u : Fin 64 → Fin 512 → ℝ) (w : Fin 512 → ℝ),
      ∑ d : Fin 512, (∑ i : Fin 64, u i d) * (1 / 64) * w d = (∑ i : Fin 64, ∑ d : Fin 512, u i d * w d) * (1 / 64) := by
    intro u w
    rw [Finset.sum_comm, Finset.sum_mul]
    refine Finset.sum_congr rfl fun d _ => ?_
    rw [Finset.sum_mul, Finset.sum_mul, Finset.sum_mul]
    refine Finset.sum_congr rfl fun i _ => ?_
    ring
  rw [h1 a w1, h1 b w2, Fintype.sum_prod_type]
  simp only [Finset.sum_add_distrib, Finset.sum_const, Finset.card_univ, Fintype.card_fin, nsmul_eq_mul]
  rw [← Finset.mul_sum]
  push_cast
  ring

/-- THE LAW: with real entries the two arrangements agree. -/
theorem pooled_eq_pairwise (A B : Fin 64 → Fin 512 → EReal) (W1 W2 : Fin 512 → EReal) (c : EReal)
    (hA : ∀ i d, IsReal (A i d)) (hB : ∀ j d, IsReal (B j d)) (hW1 : ∀ d, IsReal (W1 d)) (hW2 : ∀ d, IsReal (W2 d))
    (hc : IsReal c) :
    pooled A B W1 W2 c = pairwise A B W1 W2 c := by
  choose a ha using hA
  choose b hb using hB
  choose w1 hw1 using hW1
  choose w2 hw2 using hW2
  obtain ⟨c', rfl⟩ := hc
  unfold pooled pairwise
  simp only [ha, hb, hw1, hw2, ofBits_zero, ofBits_64, ofBits_4096, Ideal.div_coe (by norm_num : (64 : ℝ) ≠ 0),
    Ideal.div_coe (by norm_num : (4096 : ℝ) ≠ 0), ← EReal.coe_mul, ← coe_finset_sum, ← EReal.coe_add, ← EReal.coe_zero]
  exact congrArg _ (real_pooled_eq_pairwise a b w1 w2 c')

end Cert.RelNet

end
-- ==== Proof.NetSpec.lean ====
/-
  The relation network as one function of its eight argument arrays.

  Entry (b, z) of the [32, 1] result is the head (two dense layers and the logistic function) of the pooled pair
  feature of batch row b. The feature's column k uses rows 0 … 511 of column k of the pair weight for the first
  object set and rows 512 … 1023 for the second (`lo`, `hi`), and entry k of the pair bias. `outPooled` takes the
  feature in the arrangement "average the objects, then project" and `outPairwise` in the arrangement "project every
  pair, then average"; when the two object arrays, the pair weight and the pair bias hold real numbers the two are
  equal (`outPairwise_eq_outPooled`), by the law of the pooled pair feature.
-/
import Idealize.ShloMosaic.Lib.ValueIdx
import proofs.«135319_j42434276884668_2_alg».proof.Proof.PairSpec

noncomputable section

open scoped BigOperators

namespace Cert.RelNet

open Idealize.ShloMosaic Idealize.ShloMosaic.ValueIdx Cert.LibRealSum

/-- Row d of the first half of the pair weight. -/
abbrev lo (d : Fin 512) : Fin 1024 := ⟨d.val, by have := d.isLt; omega⟩
/-- Row d of the second half of the pair weight. -/
abbrev hi (d : Fin 512) : Fin 1024 := ⟨512 + d.val, by have := d.isLt; omega⟩

section
variable (O1 O2 : (⟨3, ![32, 64, 512]⟩ : Shape).Idx → EReal) (Wg : (⟨2, ![1024, 256]⟩ : Shape).Idx → EReal)
  (bg : (⟨1, ![256]⟩ : Shape).Idx → EReal) (Wf1 : (⟨2, ![256, 256]⟩ : Shape).Idx → EReal)
  (bf1 : (⟨1, ![256]⟩ : Shape).Idx → EReal) (Wf2 : (⟨2, ![256, 1]⟩ : Shape).Idx → EReal)
  (bf2 : (⟨1, ![1]⟩ : Shape).Idx → EReal)

/-- Entry (b, z) of the result, the pair feature averaged first. -/
def outPooled (b : Fin 32) (z : Fin 1) : EReal :=
  headRow (fun k => pooled (fun n d => O1 (ix3 b n d)) (fun n d => O2 (ix3 b n d)) (fun d => Wg (ix2 (lo d) k))
      (fun d => Wg (ix2 (hi d) k)) (bg (ix1 k)))
    (fun k q => Wf1 (ix2 k q)) (fun q => bf1 (ix1 q)) (fun q => Wf2 (ix2 q z)) (bf2 (ix1 z))

/-- Entry (b, z) of the result, every pair projected first. -/
def outPairwise (b : Fin 32) (z : Fin 1) : EReal :=
  headRow (fun k => pairwise (fun n d => O1 (ix3 b n d)) (fun n d => O2 (ix3 b n d)) (fun d => Wg (ix2 (lo d) k))
      (fun d => Wg (ix2 (hi d) k)) (bg (ix1 k)))
    (fun k q => Wf1 (ix2 k q)) (fun q => bf1 (ix1 q)) (fun q => Wf2 (ix2 q z)) (bf2 (ix1 z))

/-- THE RESULT ARRAY: `outPooled` at every index. -/
def G : (⟨2, ![32, 1]⟩ : Shape).Idx → EReal :=
  fun i => outPooled O1 O2 Wg bg Wf1 bf1 Wf2 bf2 ⟨(i 0).val, (i 0).isLt⟩ ⟨(i 1).val, (i 1).isLt⟩

theorem G_apply (b : Fin 32) (z : Fin 1) :
    G O1 O2 Wg bg Wf1 bf1 Wf2 bf2 (ix2 b z) = outPooled O1 O2 Wg bg Wf1 bf1 Wf2 bf2 b z := rfl

/-- With real object arrays, pair weight and pair bias, the two arrangements give one result. -/
theorem outPairwise_eq_outPooled (hO1 : ∀ i, IsReal (O1 i)) (hO2 : ∀ i, IsReal (O2 i)) (hWg : ∀ i, IsReal (Wg i))
    (hbg : ∀ i, IsReal (bg i)) (b : Fin 32) (z : Fin 1) :
    outPairwise O1 O2 Wg bg Wf1 bf1 Wf2 bf2 b z = outPooled O1 O2 Wg bg Wf1 bf1 Wf2 bf2 b z := by
  unfold outPairwise outPooled
  refine congrArg (fun g => headRow g _ _ _ _) (funext fun k => ?_)
  exact (pooled_eq_pairwise _ _ _ _ _ (fun n d => hO1 _) (fun n d => hO2 _) (fun d => hWg _) (fun d => hWg _) (hbg _)).symm

end

end Cert.RelNet

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«135319_j42434276884668_2_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.KernelRow.lean ====
/-
  One row of the kernel's block, as a value.

  At a grid point the body holds eight batch rows. For local row p it averages each object set over its 64 objects
  (a lane sum divided by 64), multiplies the two averages by the two halves of the pair weight (two matrix products
  into a zero accumulator), adds the products and the bias row, and then applies the two dense layers and the logistic
  function. Read at entry (p, 0) this is `headRow` of the `pooled` feature of row p: every step below is the reading
  of one operation at a literal index — a lane sum as a finite sum over the reduced axis, a matrix product into the
  zero splat as the sum of products over the contracted index, a one-row broadcast as that row — and no step uses
  finiteness.
-/
import proofs.«135319_j42434276884668_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«135319_j42434276884668_2_alg».proof.Proof.LibDotForms
import proofs.«135319_j42434276884668_2_alg».proof.Proof.PairSpec

noncomputable section

open scoped BigOperators

namespace Cert.RelNet.KernelRow

open Idealize.ShloMosaic Idealize.ShloMosaic.ValueIdx Cert.KernelIdeal Cert.KernelIdeal.Gen

/-! ## The three products' dimension records are the plain product's -/

theorem dims_pair : dot_S8x512_S512x256_S8x256_1_0_0_1_n_n = DotDims.plain 8 512 256 := rfl
theorem dims_hidden : dot_S8x256_S256x256_S8x256_1_0_0_1_n_n = DotDims.plain 8 256 256 := rfl
theorem dims_out : dot_S8x256_S256x1_S8x1_1_0_0_1_n_n = DotDims.plain 8 256 1 := rfl

/-! ## The object average: a lane sum over the 64 objects, divided by 64 -/

/-- The sum over the object axis of an [8, 64, 512] block at (p, d) is the sum over the 64 objects of the block at (p, i, d). -/
theorem object_sum (x : FVec Ideal S8x64x512 .f32) (hacc : (0x00000000#32 : BitVec 32) = 0x00000000#32) (p : Fin 8) (d : Fin 512) :
    multiReduction (F := Ideal) .add [1] S8x512 x 0x00000000#32 reduces_S8x64x512_S8x512 (.inl rfl) hacc (ix2 p d)
      = ∑ i : Fin 64, x (ix3 p i d) := by
  refine (Ideal.multiReduction_add_single x 0x00000000#32 reduces_S8x64x512_S8x512 (.inl rfl) hacc (ix2 p d)).trans ?_
  refine Finset.sum_congr rfl fun i _ => congrArg x ?_
  funext a
  apply Fin.ext
  match a with
  | ⟨0, _⟩ => rfl
  | ⟨1, _⟩ => rfl
  | ⟨2, _⟩ => rfl

/-- The object average at (p, d): the lane sum divided by the literal 64. -/
theorem object_mean (x : FVec Ideal S8x64x512 .f32) (hacc : (0x00000000#32 : BitVec 32) = 0x00000000#32) (p : Fin 8) (d : Fin 512) :
    divf (multiReduction (F := Ideal) .add [1] S8x512 x 0x00000000#32 reduces_S8x64x512_S8x512 (.inl rfl) hacc)
        (broadcast S8x512 (Scalar.ofBits (F := Ideal) .f32 0x42800000#32)) (ix2 p d)
      = Ideal.div (∑ i : Fin 64, x (ix3 p i d)) (Ideal.ofBits .f32 0x42800000#32) := by
  show Ideal.div (multiReduction (F := Ideal) .add [1] S8x512 x 0x00000000#32 reduces_S8x64x512_S8x512 (.inl rfl) hacc (ix2 p d)) _ = _
  rw [object_sum]
  rfl

/-! ## The three products, each into the zero splat, with the format changes the identity -/

theorem pair_product (u : FVec Ideal S8x512 .f32) (w : FVec Ideal S512x256 .f32) (h1 h2) (p : Fin 8) (k : Fin 256) :
    matmul (F := Ideal) dot_S8x512_S512x256_S8x256_1_0_0_1_n_n none (truncf .bf16 u h1) (truncf .bf16 w h2)
        (constant S8x256 .f32 0x00000000#32) (ix2 p k)
      = ∑ d : Fin 512, u (ix2 p d) * w (ix2 d k) :=
  Cert.LibDotForms.matmul_plain_prec (M := 8) (K := 512) (N := 256) none (truncf .bf16 u h1) (truncf .bf16 w h2) p k

theorem hidden_product (u : FVec Ideal S8x256 .f32) (w : FVec Ideal S256x256 .f32) (h1 h2) (p : Fin 8) (q : Fin 256) :
    matmul (F := Ideal) dot_S8x256_S256x256_S8x256_1_0_0_1_n_n none (truncf .bf16 u h1) (truncf .bf16 w h2)
        (constant S8x256 .f32 0x00000000#32) (ix2 p q)
      = ∑ k : Fin 256, u (ix2 p k) * w (ix2 k q) :=
  Cert.LibDotForms.matmul_plain_prec (M := 8) (K := 256) (N := 256) none (truncf .bf16 u h1) (truncf .bf16 w h2) p q

theorem out_product (u : FVec Ideal S8x256 .f32) (w : FVec Ideal S256x1 .bf16) (h1) (p : Fin 8) (z : Fin 1) :
    matmul (F := Ideal) dot_S8x256_S256x1_S8x1_1_0_0_1_n_n none (truncf .bf16 u h1) w
        (constant S8x1 .f32 0x00000000#32) (ix2 p z)
      = ∑ q : Fin 256, u (ix2 p q) * w (ix2 q z) :=
  Cert.LibDotForms.matmul_plain_prec (M := 8) (K := 256) (N := 1) none (truncf .bf16 u h1) w p z

/-! ## A bias row broadcast over the eight rows -/

theorem bias_row (v : FVec Ideal S1x256 .f32) (hc hb) (p : Fin 8) (k : Fin 256) :
    broadcastTo S8x256 (shapeCast S1x256 v hc) hb (ix2 p k) = v (ix2 (0 : Fin 1) k) := by
  rw [shapeCast_self]
  exact broadcastTo_1b_ab_apply (a := 8) (b := 256) v hb p k

theorem bias_entry (v : FVec Ideal S1x1 .f32) (hc hb) (p : Fin 8) (z : Fin 1) :
    broadcastTo S8x1 (shapeCast S1x1 v hc) hb (ix2 p z) = v (ix2 (0 : Fin 1) z) := by
  rw [shapeCast_self]
  exact broadcastTo_1b_ab_apply (a := 8) (b := 1) v hb p z

/-- The logistic function lane by lane. -/
theorem logistic_apply {s : Shape} {φ : FTy} (v : FVec Ideal s φ) (i : s.Idx) : logistic v i = Ideal.logistic (v i) := rfl

/-! ## The pooled row, the hidden row, and the stored entry -/

/-- Entry (p, q) of the hidden layer's input block: the first dense layer of the pooled feature of row p. -/
theorem hidden_row (x0 x1 : Vec Ideal S8x64x512 .f32) (x2 x3 : Vec Ideal S512x256 .f32) (x4 : Vec Ideal S1x256 .f32)
    (x5 : Vec Ideal S256x256 .f32) (x6 : Vec Ideal S1x256 .f32) (p : Fin 8) (q : Fin 256) :
    k0_pay2 (F := Ideal) x0 x1 x2 x3 x4 x5 x6 (ix2 p q)
      = (∑ k : Fin 256, pooled (fun i d => x0 (ix3 p i d)) (fun j d => x1 (ix3 p j d)) (fun d => x2 (ix2 d k))
            (fun d => x3 (ix2 d k)) (x4 (ix2 (0 : Fin 1) k)) * x5 (ix2 k q)) + x6 (ix2 (0 : Fin 1) q) := by
  unfold k0_pay2
  dsimp only
  rw [addf_apply, hidden_product, bias_row]
  refine congrArg (· + x6 (ix2 (0 : Fin 1) q)) (Finset.sum_congr rfl fun k _ => congrArg (· * x5 (ix2 k q)) ?_)
  rw [addf_apply, addf_apply, pair_product, pair_product, bias_row, shapeCast_self, shapeCast_self]
  unfold pooled
  exact congrArg₂ (· + ·)
    (congrArg₂ (· + ·)
      (Finset.sum_congr rfl fun d _ => congrArg (· * x2 (ix2 d k)) (object_mean x0 _ p d))
      (Finset.sum_congr rfl fun d _ => congrArg (· * x3 (ix2 d k)) (object_mean x1 _ p d)))
    rfl

/-- THE STORED ENTRY: entry (p, z) of the block the body stores is the head of the pooled feature of row p. -/
theorem stored_entry (x0 x1 : Vec Ideal S8x64x512 .f32) (x2 x3 : Vec Ideal S512x256 .f32) (x4 : Vec Ideal S1x256 .f32)
    (x5 : Vec Ideal S256x256 .f32) (x6 : Vec Ideal S1x256 .f32) (x7 : Vec Ideal S256x1 .f32) (x8 : Vec Ideal S1x1 .f32)
    (p : Fin 8) (z : Fin 1) :
    k0_pay1 (F := Ideal) (k0_pay2 x0 x1 x2 x3 x4 x5 x6) (k0_pay3 x7) x8 (ix2 p z)
      = headRow (fun k => pooled (fun i d => x0 (ix3 p i d)) (fun j d => x1 (ix3 p j d)) (fun d => x2 (ix2 d k))
            (fun d => x3 (ix2 d k)) (x4 (ix2 (0 : Fin 1) k)))
          (fun k q => x5 (ix2 k q)) (fun q => x6 (ix2 (0 : Fin 1) q)) (fun q => x7 (ix2 q z)) (x8 (ix2 (0 : Fin 1) z)) := by
  unfold k0_pay1 k0_pay3
  dsimp only
  rw [logistic_apply, addf_apply, out_product, bias_entry]
  unfold headRow
  refine congrArg Ideal.logistic (congrArg (· + x8 (ix2 (0 : Fin 1) z)) (Finset.sum_congr rfl fun q _ => ?_))
  rw [hidden_row]
  rfl

end Cert.RelNet.KernelRow

end
-- ==== Proof.KernelArray.lean ====
/-
  The kernel's result array as one function of its arguments.

  The grid has four points; point t stages batch rows 8 t … 8 t + 7 of each object array, the whole of every weight
  and bias, and writes back rows 8 t … 8 t + 7 of the [32, 1] result. Before the region the host cuts the pair weight
  into its upper half (rows 0 … 511) and lower half (rows 512 … 1023) and recasts each bias vector as a one-row
  matrix; so the blocks the body loads are, entry by entry, entries of the argument arrays. With the reading of the
  body's stored entry as the head of the pooled feature of its row, what point t writes back is block t of the
  network's function `G` of the argument arrays; the four blocks tile the result, so the result array ends at `G`.
-/
import proofs.«135319_j42434276884668_2_alg».proof.Proof.Gen.KernelIdeal.Value
import Idealize.ShloMosaic.Lib.Pipeline.Value
import Idealize.ShloMosaic.Lib.ValueLayout
import Idealize.ShloMosaic.Lib.StableHlo.Run
import proofs.«135319_j42434276884668_2_alg».proof.Proof.KernelRow
import proofs.«135319_j42434276884668_2_alg».proof.Proof.NetSpec

noncomputable section

open scoped BigOperators

namespace Cert.RelNet.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The network's function of the argument arrays as launched on core `c`. -/
def result (c : Dev nD) : S32x1.Idx → EReal :=
  G (m ((c : Thread nD τ).loc main_arg0) : S32x64x512.Idx → EReal) (m ((c : Thread nD τ).loc main_arg1) : S32x64x512.Idx → EReal)
    (m ((c : Thread nD τ).loc main_arg2) : S1024x256.Idx → EReal) (m ((c : Thread nD τ).loc main_arg3) : S256.Idx → EReal)
    (m ((c : Thread nD τ).loc main_arg4) : S256x256.Idx → EReal) (m ((c : Thread nD τ).loc main_arg5) : S256.Idx → EReal)
    (m ((c : Thread nD τ).loc main_arg6) : S256x1.Idx → EReal) (m ((c : Thread nD τ).loc main_arg7) : S1.Idx → EReal)

/-! ## What the host leaves in the arrays the region stages -/

theorem V_upper (c : Dev nD) : (V m c main_v0 : S512x256.Idx → EReal)
    = extractStridedSlice S512x256 ![0, 0] (m ((c : Thread nD τ).loc main_arg2) : S1024x256.Idx → EReal) slices_S1024x256_S512x256_0_0 := by
  dsimp only [Gen.V, Gen.hostOps0]; after_results

theorem V_lower (c : Dev nD) : (V m c main_v1 : S512x256.Idx → EReal)
    = extractStridedSlice S512x256 ![512, 0] (m ((c : Thread nD τ).loc main_arg2) : S1024x256.Idx → EReal) slices_S1024x256_S512x256_512_0 := by
  dsimp only [Gen.V, Gen.hostOps0]; after_results

theorem V_pair_bias (c : Dev nD) : (V m c main_v2 : S1x256.Idx → EReal)
    = shapeCast S1x256 (m ((c : Thread nD τ).loc main_arg3) : S256.Idx → EReal) shapeCasts_S256_S1x256 := by
  dsimp only [Gen.V, Gen.hostOps0]; after_results; rfl

theorem V_hidden_bias (c : Dev nD) : (V m c main_v3 : S1x256.Idx → EReal)
    = shapeCast S1x256 (m ((c : Thread nD τ).loc main_arg5) : S256.Idx → EReal) shapeCasts_S256_S1x256 := by
  dsimp only [Gen.V, Gen.hostOps0]; after_results; rfl

theorem V_out_bias (c : Dev nD) : (V m c main_v4 : S1x1.Idx → EReal)
    = shapeCast S1x1 (m ((c : Thread nD τ).loc main_arg7) : S1.Idx → EReal) shapeCasts_S1_S1x1 := by
  dsimp only [Gen.V, Gen.hostOps0]; after_results; rfl

/-! ## The printed index maps, decided over the four points -/

theorem index_facts : ∀ t : Fin cfg0.N,
    win0_0.index t (0 : Fin 3) = win0_9.index t (0 : Fin 2) ∧ win0_0.index t (1 : Fin 3) = 0 ∧ win0_0.index t (2 : Fin 3) = 0
    ∧ win0_1.index t (0 : Fin 3) = win0_9.index t (0 : Fin 2) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 3 ∧ win0_9.index t (1 : Fin 2) = 0 :=
  (by decide +kernel : ∀ t : Fin grid0.N, _)

/-- Every block of rows of the result is some point's. -/
theorem index_onto : ∀ q : Fin 4, ∃ t : Fin cfg0.N, win0_9.index t = ![q.val, 0] :=
  (by decide +kernel : ∀ q : Fin 4, ∃ t : Fin grid0.N, win0_9.index t = ![q.val, 0])

/-! ## Congruences of the two specification terms -/

theorem pooled_congr {A A' B B' : Fin 64 → Fin 512 → EReal} {W1 W1' W2 W2' : Fin 512 → EReal} {c c' : EReal}
    (hA : ∀ i d, A i d = A' i d) (hB : ∀ j d, B j d = B' j d) (h1 : ∀ d, W1 d = W1' d) (h2 : ∀ d, W2 d = W2' d) (hc : c = c') :
    pooled A B W1 W2 c = pooled A' B' W1' W2' c' := by
  obtain rfl : A = A' := funext fun i => funext fun d => hA i d
  obtain rfl : B = B' := funext fun j => funext fun d => hB j d
  obtain rfl : W1 = W1' := funext h1
  obtain rfl : W2 = W2' := funext h2
  rw [hc]

theorem headRow_congr {g g' : Fin 256 → EReal} {Wf1 Wf1' : Fin 256 → Fin 256 → EReal} {bf1 bf1' Wf2 Wf2' : Fin 256 → EReal}
    {bf2 bf2' : EReal} (hg : ∀ k, g k = g' k) (h1 : ∀ k q, Wf1 k q = Wf1' k q) (h2 : ∀ q, bf1 q = bf1' q)
    (h3 : ∀ q, Wf2 q = Wf2' q) (h4 : bf2 = bf2') :
    headRow g Wf1 bf1 Wf2 bf2 = headRow g' Wf1' bf1' Wf2' bf2' := by
  obtain rfl : g = g' := funext hg
  obtain rfl : Wf1 = Wf1' := funext fun k => funext fun q => h1 k q
  obtain rfl : bf1 = bf1' := funext h2
  obtain rfl : Wf2 = Wf2' := funext h3
  rw [h4]

/-! ## The loaded blocks, entry by entry -/

section Blocks
variable (c : Dev nD) (t : Fin cfg0.N)

/-- Local row p of the first object block at point t is batch row 8 t + p. -/
theorem objects_one (p : Fin 8) (i : Fin 64) (d : Fin 512) (b : Fin 32) (hb : b.val = win0_9.index t (0 : Fin 2) * 8 + p.val) :
    iblk m c 0 t (ix3 p i d) = (m ((c : Thread nD τ).loc main_arg0) : S32x64x512.Idx → EReal) (ix3 b i d) := by
  show V m c main_arg0 (((cfg0.win 0).blk t).view.emb (ix3 p i d)) = _
  rw [V_main_arg0]
  refine congrArg _ (funext fun a => Fin.ext ?_)
  obtain ⟨e0, e1, e2, -⟩ := index_facts t
  match a with
  | ⟨0, _⟩ => show win0_0.index t (0 : Fin 3) * 8 + 1 * p.val = b.val; omega
  | ⟨1, _⟩ => show win0_0.index t (1 : Fin 3) * 64 + 1 * i.val = i.val; omega
  | ⟨2, _⟩ => show win0_0.index t (2 : Fin 3) * 512 + 1 * d.val = d.val; omega

/-- … and of the second object block likewise. -/
theorem objects_two (p : Fin 8) (i : Fin 64) (d : Fin 512) (b : Fin 32) (hb : b.val = win0_9.index t (0 : Fin 2) * 8 + p.val) :
    iblk m c 1 t (ix3 p i d) = (m ((c : Thread nD τ).loc main_arg1) : S32x64x512.Idx → EReal) (ix3 b i d) := by
  show V m c main_arg1 (((cfg0.win 1).blk t).view.emb (ix3 p i d)) = _
  rw [V_main_arg1]
  refine congrArg _ (funext fun a => Fin.ext ?_)
  obtain ⟨-, -, -, e0, e1, e2, -⟩ := index_facts t
  match a with
  | ⟨0, _⟩ => show win0_1.index t (0 : Fin 3) * 8 + 1 * p.val = b.val; omega
  | ⟨1, _⟩ => show win0_1.index t (1 : Fin 3) * 64 + 1 * i.val = i.val; omega
  | ⟨2, _⟩ => show win0_1.index t (2 : Fin 3) * 512 + 1 * d.val = d.val; omega

/-- The upper half of the pair weight. -/
theorem upper_weight (d : Fin 512) (k : Fin 256) :
    iblk m c 2 t (ix2 d k) = (m ((c : Thread nD τ).loc main_arg2) : S1024x256.Idx → EReal) (ix2 (lo d) k) := by
  show V m c main_v0 (((cfg0.win 2).blk t).view.emb (ix2 d k)) = _
  have he : ((cfg0.win 2).blk t).view.emb (ix2 d k) = ix2 d k := by
    funext a; apply Fin.ext
    obtain ⟨-, -, -, -, -, -, e0, e1, -⟩ := index_facts t
    match a with
    | ⟨0, _⟩ => show win0_2.index t (0 : Fin 2) * 512 + 1 * d.val = d.val; omega
    | ⟨1, _⟩ => show win0_2.index t (1 : Fin 2) * 256 + 1 * k.val = k.val; omega
  rw [he, V_upper]
  exact slice2_axis0_apply 0 _ slices_S1024x256_S512x256_0_0 d k (lo d) (Nat.zero_add _).symm

/-- The lower half of the pair weight. -/
theorem lower_weight (d : Fin 512) (k : Fin 256) :
    iblk m c 3 t (ix2 d k) = (m ((c : Thread nD τ).loc main_arg2) : S1024x256.Idx → EReal) (ix2 (hi d) k) := by
  show V m c main_v1 (((cfg0.win 3).blk t).view.emb (ix2 d k)) = _
  have he : ((cfg0.win 3).blk t).view.emb (ix2 d k) = ix2 d k := by
    funext a; apply Fin.ext
    obtain ⟨-, -, -, -, -, -, -, -, e0, e1, -⟩ := index_facts t
    match a with
    | ⟨0, _⟩ => show win0_3.index t (0 : Fin 2) * 512 + 1 * d.val = d.val; omega
    | ⟨1, _⟩ => show win0_3.index t (1 : Fin 2) * 256 + 1 * k.val = k.val; omega
  rw [he, V_lower]
  exact slice2_axis0_apply 512 _ slices_S1024x256_S512x256_512_0 d k (hi d) rfl

/-- The pair bias, recast as one row. -/
theorem pair_bias_row (k : Fin 256) :
    iblk m c 4 t (ix2 (0 : Fin 1) k) = (m ((c : Thread nD τ).loc main_arg3) : S256.Idx → EReal) (ix1 k) := by
  show V m c main_v2 (((cfg0.win 4).blk t).view.emb (ix2 (0 : Fin 1) k)) = _
  have he : ((cfg0.win 4).blk t).view.emb (ix2 (0 : Fin 1) k) = ix2 (0 : Fin 1) k := by
    funext a; apply Fin.ext
    obtain ⟨-, -, -, -, -, -, -, -, -, -, e0, e1, -⟩ := index_facts t
    match a with
    | ⟨0, _⟩ => show win0_4.index t (0 : Fin 2) * 1 + 1 * 0 = 0; omega
    | ⟨1, _⟩ => show win0_4.index t (1 : Fin 2) * 256 + 1 * k.val = k.val; omega
  rw [he, V_pair_bias]
  exact shapeCast_a_1a_apply _ shapeCasts_S256_S1x256 0 k

/-- The hidden layer's weight. -/
theorem hidden_weight (k q : Fin 256) :
    iblk m c 5 t (ix2 k q) = (m ((c : Thread nD τ).loc main_arg4) : S256x256.Idx → EReal) (ix2 k q) := by
  show V m c main_arg4 (((cfg0.win 5).blk t).view.emb (ix2 k q)) = _
  rw [V_main_arg4]
  refine congrArg _ (funext fun a => Fin.ext ?_)
  obtain ⟨-, -, -, -, -, -, -, -, -, -, -, -, e0, e1, -⟩ := index_facts t
  match a with
  | ⟨0, _⟩ => show win0_5.index t (0 : Fin 2) * 256 + 1 * k.val = k.val; omega
  | ⟨1, _⟩ => show win0_5.index t (1 : Fin 2) * 256 + 1 * q.val = q.val; omega

/-- The hidden layer's bias, recast as one row. -/
theorem hidden_bias_row (q : Fin 256) :
    iblk m c 6 t (ix2 (0 : Fin 1) q) = (m ((c : Thread nD τ).loc main_arg5) : S256.Idx → EReal) (ix1 q) := by
  show V m c main_v3 (((cfg0.win 6).blk t).view.emb (ix2 (0 : Fin 1) q)) = _
  have he : ((cfg0.win 6).blk t).view.emb (ix2 (0 : Fin 1) q) = ix2 (0 : Fin 1) q := by
    funext a; apply Fin.ext
    obtain ⟨-, -, -, -, -, -, -, -, -, -, -, -, -, -, e0, e1, -⟩ := index_facts t
    match a with
    | ⟨0, _⟩ => show win0_6.index t (0 : Fin 2) * 1 + 1 * 0 = 0; omega
    | ⟨1, _⟩ => show win0_6.index t (1 : Fin 2) * 256 + 1 * q.val = q.val; omega
  rw [he, V_hidden_bias]
  exact shapeCast_a_1a_apply _ shapeCasts_S256_S1x256 0 q

/-- The output layer's weight. -/
theorem out_weight (q : Fin 256) (z : Fin 1) :
    iblk m c 7 t (ix2 q z) = (m ((c : Thread nD τ).loc main_arg6) : S256x1.Idx → EReal) (ix2 q z) := by
  show V m c main_arg6 (((cfg0.win 7).blk t).view.emb (ix2 q z)) = _
  rw [V_main_arg6]
  refine congrArg _ (funext fun a => Fin.ext ?_)
  obtain ⟨-, -, -, -, -, -, -, -, -, -, -, -, -, -, -, -, e0, e1, -⟩ := index_facts t
  match a with
  | ⟨0, _⟩ => show win0_7.index t (0 : Fin 2) * 256 + 1 * q.val = q.val; omega
  | ⟨1, _⟩ => show win0_7.index t (1 : Fin 2) * 1 + 1 * z.val = z.val; omega

/-- The output layer's bias, recast as a one-entry matrix. -/
theorem out_bias_entry (z : Fin 1) :
    iblk m c 8 t (ix2 (0 : Fin 1) z) = (m ((c : Thread nD τ).loc main_arg7) : S1.Idx → EReal) (ix1 z) := by
  show V m c main_v4 (((cfg0.win 8).blk t).view.emb (ix2 (0 : Fin 1) z)) = _
  have he : ((cfg0.win 8).blk t).view.emb (ix2 (0 : Fin 1) z) = ix2 (0 : Fin 1) z := by
    funext a; apply Fin.ext
    obtain ⟨-, -, -, -, -, -, -, -, -, -, -, -, -, -, -, -, -, -, e0, e1, -⟩ := index_facts t
    match a with
    | ⟨0, _⟩ => show win0_8.index t (0 : Fin 2) * 1 + 1 * 0 = 0; omega
    | ⟨1, _⟩ => show win0_8.index t (1 : Fin 2) * 1 + 1 * z.val = z.val; omega
  rw [he, V_out_bias]
  exact shapeCast_a_1a_apply _ shapeCasts_S1_S1x1 0 z

end Blocks

/-! ## What a point writes back, the cover, and the array after the run -/

theorem hz2 : (![0, 0] : Fin 2 → Nat) = fun _ => 0 := funext fun a => by fin_cases a <;> rfl
theorem hz3 : (![0, 0, 0] : Fin 3 → Nat) = fun _ => 0 := funext fun a => by fin_cases a <;> rfl

/-- The network's function at an index whose coordinates are (b, z). -/
theorem result_at (c : Dev nD) (i : S32x1.Idx) (b : Fin 32) (z : Fin 1) (h0 : (i 0).val = b.val) (h1 : (i 1).val = z.val) :
    result m c i = outPooled (m ((c : Thread nD τ).loc main_arg0) : S32x64x512.Idx → EReal) (m ((c : Thread nD τ).loc main_arg1) : S32x64x512.Idx → EReal)
      (m ((c : Thread nD τ).loc main_arg2) : S1024x256.Idx → EReal) (m ((c : Thread nD τ).loc main_arg3) : S256.Idx → EReal)
      (m ((c : Thread nD τ).loc main_arg4) : S256x256.Idx → EReal) (m ((c : Thread nD τ).loc main_arg5) : S256.Idx → EReal)
      (m ((c : Thread nD τ).loc main_arg6) : S256x1.Idx → EReal) (m ((c : Thread nD τ).loc main_arg7) : S1.Idx → EReal) b z := by
  have hi : i = ix2 b z := funext fun a => Fin.ext (by
    match a with
    | ⟨0, _⟩ => exact h0
    | ⟨1, _⟩ => exact h1)
  rw [hi]
  rfl

/-- WHAT POINT t WRITES BACK is block t of the network's function of the argument arrays. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  rw [View.canon_unit_zero hz2]
  simp only [View.ld_unit_zero (S := S8x64x512) hz3, View.ld_unit_zero (S := S512x256) hz2, View.ld_unit_zero (S := S1x256) hz2,
    View.ld_unit_zero (S := S256x256) hz2, View.ld_unit_zero (S := S256x1) hz2, View.ld_unit_zero (S := S1x1) hz2]
  funext j
  obtain ⟨p, z, rfl⟩ : ∃ (p : Fin 8) (z : Fin 1), j = ix2 p z := ⟨j 0, j 1, eq_ix2 j⟩
  show k0_pay1 (F := Ideal) (k0_pay2 (iblk m c 0 t) (iblk m c 1 t) (iblk m c 2 t) (iblk m c 3 t) (iblk m c 4 t) (iblk m c 5 t) (iblk m c 6 t))
      (k0_pay3 (iblk m c 7 t)) (iblk m c 8 t) (ix2 p z) = result m c (((cfg0.win 9).blk t).view.emb (ix2 p z))
  refine (Cert.RelNet.KernelRow.stored_entry (iblk m c 0 t) (iblk m c 1 t) (iblk m c 2 t) (iblk m c 3 t) (iblk m c 4 t)
    (iblk m c 5 t) (iblk m c 6 t) (iblk m c 7 t) (iblk m c 8 t) p z).trans ?_
  have hf := index_facts t
  have hlt : win0_9.index t (0 : Fin 2) * 8 + p.val < 32 := by have := p.isLt; omega
  rw [result_at m c _ ⟨win0_9.index t (0 : Fin 2) * 8 + p.val, hlt⟩ z
    (by show win0_9.index t (0 : Fin 2) * 8 + 1 * p.val = win0_9.index t (0 : Fin 2) * 8 + p.val; omega)
    (by show win0_9.index t (1 : Fin 2) * 1 + 1 * z.val = z.val; omega)]
  unfold outPooled
  exact headRow_congr
    (fun k => pooled_congr (fun i d => objects_one m c t p i d _ rfl) (fun i d => objects_two m c t p i d _ rfl)
      (fun d => upper_weight m c t d k) (fun d => lower_weight m c t d k) (pair_bias_row m c t k))
    (fun k q => hidden_weight m c t k q) (fun q => hidden_bias_row m c t q) (fun q => out_weight m c t q z)
    (out_bias_entry m c t z)

/-- An index of the result is in point t's block iff each coordinate is in the block's range on its axis. -/
theorem mem_block (t : Fin cfg0.N) (i : S32x1.Idx) :
    i ∈ ((cfg0.win 9).blk t).view.set ↔ ∀ a : Fin 2, win0_9.index t a * S8x1.size a ≤ (i a).val ∧ (i a).val < win0_9.index t a * S8x1.size a + S8x1.size a := by
  show i ∈ ((View.whole main_v5).slice (win0_9.rect t)).set ↔ _
  rw [View.set_slice_whole, Rect.mem_set_unit]
  exact Iff.rfl

/-- The four blocks cover the result: row r is in the block of point r / 8. -/
theorem covered (i : S32x1.Idx) : ∃ t : Fin cfg0.N, (cfg0.win 9).flush t = true ∧ i ∈ ((cfg0.win 9).blk t).view.set := by
  have hi0 : (i 0).val < 32 := (i 0).isLt
  have hi1 : (i 1).val < 1 := (i 1).isLt
  obtain ⟨t, ht⟩ := index_onto ⟨(i 0).val / 8, by omega⟩
  have q0 : win0_9.index t (0 : Fin 2) = (i 0).val / 8 := congrFun ht 0
  have q1 : win0_9.index t (1 : Fin 2) = 0 := congrFun ht 1
  refine ⟨t, flush0_9 t, ?_⟩
  rw [mem_block]
  intro a
  match a with
  | ⟨0, _⟩ => show win0_9.index t (0 : Fin 2) * 8 ≤ (i 0).val ∧ (i 0).val < win0_9.index t (0 : Fin 2) * 8 + 8; omega
  | ⟨1, _⟩ => show win0_9.index t (1 : Fin 2) * 1 ≤ (i 1).val ∧ (i 1).val < win0_9.index t (1 : Fin 2) * 1 + 1; omega

/-- THE ARRAY after the run is the network's function of the argument arrays. -/
theorem final (c : Dev nD) : (dats m 0 c).arrAt 9 cfg0.N = result m c :=
  (dats m 0 c).arrAt_eq_of_cover 9 (result m c) (fun t _ => flushed_eq m c t) covered

/-- The kernel's run: the result array at the network's function of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.RelNet.KernelArray

end
-- ==== Proof.RefRow.lean ====
/-
  One entry of the reference's result, as a value.

  The reference lays every ordered pair of objects out explicitly: object set one repeated along a new third axis,
  object set two along a new second axis, both flattened to 4096 = 64 · 64 pair rows, and the two joined along the
  feature axis into rows of 1024 features. Pair row p = 64 · i + j therefore holds object i of set one in features
  0 … 511 and object j of set two in features 512 … 1023. Projecting a pair row by the pair weight splits, at feature
  512, into the projection of object i by the weight's upper half plus that of object j by its lower half; adding the
  bias, summing over the pair rows (re-indexed by the pairs (i, j)) and dividing by 4096 is `pairwise`. The two dense
  layers follow, and the reference's spelling 1 / (1 + exp (−x)) is the logistic function. So entry (b, z) of the
  result is `outPairwise`. Nothing here uses finiteness: only re-indexings of sums and the reading of each layout
  operation at an index.
-/
import proofs.«135319_j42434276884668_2_alg».proof.Proof.Gen.ReferenceIdeal.Read
import Idealize.ShloMosaic.Lib.Pipeline.Value
import Idealize.ShloMosaic.Lib.ValueIdx
import proofs.«135319_j42434276884668_2_alg».proof.Proof.NetSpec

noncomputable section

open scoped BigOperators

namespace Cert.RelNet.RefRow

open Idealize.ShloMosaic Idealize.ShloMosaic.ValueIdx Cert.ReferenceIdeal Cert.ReferenceIdeal.Gen Cert.ReferenceIdeal.Read

theorem ofBits_one : Ideal.ofBits .f32 0x3F800000#32 = 1 := by
  simp [Ideal.ofBits, Ideal.ieee, -EReal.coe_mul]; norm_num

/-! ## The two pieces of a pair row -/

/-- Pair row p holds, in its first piece, object p / 64 of the first set. -/
theorem first_piece (x0 : (⟨S32x64x512, .f32⟩ : BufTy).Contents (Elt Ideal)) (b : Fin 32) (p : Fin 4096) (d : Fin 512)
    (n : Fin 64) (hn : n.val = p.val / 64) :
    val_main_v2 (F := Ideal) x0 (ix3 b p d) = x0 (ix3 b n d) := by
  rw [val_main_v2_apply, val_main_v1_apply, val_main_v0_apply]
  refine congrArg x0 (funext fun a => Fin.ext ?_)
  have hb := b.isLt; have hp := p.isLt; have hd := d.isLt
  match a with
  | ⟨0, _⟩ => show ((b.val * 4096 + p.val) * 512 + d.val) / 2097152 = b.val; omega
  | ⟨1, _⟩ => show ((b.val * 4096 + p.val) * 512 + d.val) / 32768 % 64 = n.val; omega
  | ⟨2, _⟩ => show ((b.val * 4096 + p.val) * 512 + d.val) % 512 = d.val; omega

/-- Pair row p holds, in its second piece, object p % 64 of the second set. -/
theorem second_piece (x1 : (⟨S32x64x512, .f32⟩ : BufTy).Contents (Elt Ideal)) (b : Fin 32) (p : Fin 4096) (d : Fin 512)
    (n : Fin 64) (hn : n.val = p.val % 64) :
    val_main_v5 (F := Ideal) x1 (ix3 b p d) = x1 (ix3 b n d) := by
  rw [val_main_v5_apply, val_main_v4_apply, val_main_v3_apply]
  refine congrArg x1 (funext fun a => Fin.ext ?_)
  have hb := b.isLt; have hp := p.isLt; have hd := d.isLt
  match a with
  | ⟨0, _⟩ => show ((b.val * 4096 + p.val) * 512 + d.val) / 2097152 = b.val; omega
  | ⟨1, _⟩ => show ((b.val * 4096 + p.val) * 512 + d.val) / 512 % 64 = n.val; omega
  | ⟨2, _⟩ => show ((b.val * 4096 + p.val) * 512 + d.val) % 512 = d.val; omega

/-- Features 0 … 511 of the joined row are the first piece. -/
theorem joined_lo (x0 x1 : (⟨S32x64x512, .f32⟩ : BufTy).Contents (Elt Ideal)) (b : Fin 32) (p : Fin 4096) (d : Fin 512) :
    val_main_v6 (F := Ideal) x0 x1 (ix3 b p (lo d)) = val_main_v2 (F := Ideal) x0 (ix3 b p d) := by
  unfold val_main_v6
  exact concatenate_pair_apply_left (t := S32x4096x1024) (s₁ := S32x4096x512) (s₂ := S32x4096x512) (2 : Fin 3)
    (val_main_v2 (F := Ideal) x0) (val_main_v5 (F := Ideal) x1) concatenates_S32x4096x512_S32x4096x512_S32x4096x1024_d2
    (ix3 b p (lo d)) rfl (ix3 b p d) (fun a => by
      match a with
      | ⟨0, _⟩ => rfl
      | ⟨1, _⟩ => rfl
      | ⟨2, _⟩ => rfl)

/-- Features 512 … 1023 of the joined row are the second piece. -/
theorem joined_hi (x0 x1 : (⟨S32x64x512, .f32⟩ : BufTy).Contents (Elt Ideal)) (b : Fin 32) (p : Fin 4096) (d : Fin 512) :
    val_main_v6 (F := Ideal) x0 x1 (ix3 b p (hi d)) = val_main_v5 (F := Ideal) x1 (ix3 b p d) := by
  unfold val_main_v6
  exact concatenate_pair_apply_right (t := S32x4096x1024) (s₁ := S32x4096x512) (s₂ := S32x4096x512) (2 : Fin 3)
    (val_main_v2 (F := Ideal) x0) (val_main_v5 (F := Ideal) x1) concatenates_S32x4096x512_S32x4096x512_S32x4096x1024_d2
    (ix3 b p (hi d)) rfl rfl (ix3 b p d) (fun a ha => by
      match a with
      | ⟨0, _⟩ => rfl
      | ⟨1, _⟩ => rfl
      | ⟨2, _⟩ => exact absurd rfl ha)
    (by show d.val + 512 = 512 + d.val; omega)

/-! ## A pair row projected by the pair weight -/

/-- The projection of pair row p splits at feature 512 into the two objects' projections by the weight's two halves. -/
theorem pair_projection (x0 x1 : (⟨S32x64x512, .f32⟩ : BufTy).Contents (Elt Ideal))
    (x2 : (⟨S1024x256, .f32⟩ : BufTy).Contents (Elt Ideal)) (b : Fin 32) (p : Fin 4096) (k : Fin 256)
    (n1 n2 : Fin 64) (h1 : n1.val = p.val / 64) (h2 : n2.val = p.val % 64) :
    val_main_v7 (F := Ideal) x0 x1 x2 (ix3 b p k)
      = (∑ d : Fin 512, x0 (ix3 b n1 d) * x2 (ix2 (lo d) k)) + (∑ d : Fin 512, x1 (ix3 b n2 d) * x2 (ix2 (hi d) k)) := by
  rw [val_main_v7_apply]
  refine (Fin.sum_univ_add (fun d : Fin (512 + 512) =>
    val_main_v6 (F := Ideal) x0 x1 (lidx_main_v7 (ix3 b p k) d) * x2 (ridx_main_v7 (ix3 b p k) d))).trans ?_
  refine congrArg₂ (· + ·) (Finset.sum_congr rfl fun d _ => ?_) (Finset.sum_congr rfl fun d _ => ?_)
  · have e1 : lidx_main_v7 (ix3 b p k) (Fin.castAdd 512 d) = ix3 b p (lo d) := funext fun a => Fin.ext (by
      match a with
      | ⟨0, _⟩ => rfl
      | ⟨1, _⟩ => rfl
      | ⟨2, _⟩ => rfl)
    have e2 : ridx_main_v7 (ix3 b p k) (Fin.castAdd 512 d) = ix2 (lo d) k := funext fun a => Fin.ext (by
      match a with
      | ⟨0, _⟩ => rfl
      | ⟨1, _⟩ => rfl)
    rw [e1, e2, joined_lo, first_piece x0 b p d n1 h1]
  · have e1 : lidx_main_v7 (ix3 b p k) (Fin.natAdd 512 d) = ix3 b p (hi d) := funext fun a => Fin.ext (by
      match a with
      | ⟨0, _⟩ => rfl
      | ⟨1, _⟩ => rfl
      | ⟨2, _⟩ => rfl)
    have e2 : ridx_main_v7 (ix3 b p k) (Fin.natAdd 512 d) = ix2 (hi d) k := funext fun a => Fin.ext (by
      match a with
      | ⟨0, _⟩ => rfl
      | ⟨1, _⟩ => rfl)
    rw [e1, e2, joined_hi, second_piece x1 b p d n2 h2]

/-! ## The average over the pair rows -/

/-- The pair rows as pairs: row 64 · i + j is the pair (i, j). -/
abbrev pairRows : Fin 64 × Fin 64 ≃ Fin 4096 := finProdFinEquiv

theorem pairRows_val (x : Fin 64 × Fin 64) : (pairRows x).val = x.2.val + 64 * x.1.val := rfl

/-- Column k of the averaged pair feature of batch row b is `pairwise`. -/
theorem pair_average (x0 x1 : (⟨S32x64x512, .f32⟩ : BufTy).Contents (Elt Ideal))
    (x2 : (⟨S1024x256, .f32⟩ : BufTy).Contents (Elt Ideal)) (x3 : (⟨S256, .f32⟩ : BufTy).Contents (Elt Ideal))
    (b : Fin 32) (k : Fin 256) :
    val_main_v13 (F := Ideal) x0 x1 x2 x3 (ix2 b k)
      = pairwise (fun n d => x0 (ix3 b n d)) (fun n d => x1 (ix3 b n d)) (fun d => x2 (ix2 (lo d) k))
          (fun d => x2 (ix2 (hi d) k)) (x3 (ix1 k)) := by
  rw [val_main_v13_apply, val_main_v11_apply, val_main_v12_apply, val_main_cst_0_apply, val_main_cst_apply]
  unfold pairwise
  refine congrArg (fun s => Ideal.div (Ideal.ofBits .f32 0x00000000#32 + s) (Ideal.ofBits .f32 0x45800000#32)) ?_
  refine (Equiv.sum_comp pairRows _).symm.trans (Finset.sum_congr rfl fun x _ => ?_)
  have e : idx_main_v11 (ix2 b k) (pairRows x) = ix3 b (pairRows x) k := funext fun a => Fin.ext (by
    match a with
    | ⟨0, _⟩ => rfl
    | ⟨1, _⟩ => rfl
    | ⟨2, _⟩ => rfl)
  have h1 : x.1.val = (pairRows x).val / 64 := by have := x.2.isLt; rw [pairRows_val]; omega
  have h2 : x.2.val = (pairRows x).val % 64 := by have := x.2.isLt; rw [pairRows_val]; omega
  rw [e, val_main_v10_apply, pair_projection x0 x1 x2 b (pairRows x) k x.1 x.2 h1 h2, val_main_v9_apply, val_main_v8_apply]
  refine congrArg (_ + ·) (congrArg x3 (funext fun a => Fin.ext ?_))
  match a with
  | ⟨0, _⟩ => rfl

/-! ## The result entry -/

/-- The reference's spelling of the logistic function. -/
theorem logistic_spelt (X : EReal) :
    FloatOps.hostDivf (F := Ideal) (φ := .f32) (FloatOps.ofBits .f32 0x3F800000#32)
        (FloatOps.addf (FloatOps.ofBits .f32 0x3F800000#32) (FloatOps.hostUnary .exp (FloatOps.hostNegf X)))
      = Ideal.logistic X := by
  show Ideal.div (Ideal.ofBits .f32 0x3F800000#32) (Ideal.ofBits .f32 0x3F800000#32 + Ideal.exp (-X)) = _
  rw [ofBits_one]
  rfl

/-- ENTRY (b, z) OF THE REFERENCE'S RESULT is `outPairwise`. -/
theorem result_entry (x0 x1 : (⟨S32x64x512, .f32⟩ : BufTy).Contents (Elt Ideal))
    (x2 : (⟨S1024x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x1, .f32⟩ : BufTy).Contents (Elt Ideal)) (x7 : (⟨S1, .f32⟩ : BufTy).Contents (Elt Ideal))
    (b : Fin 32) (z : Fin 1) :
    val_main_v27 (F := Ideal) x0 x1 x2 x3 x4 x5 x6 x7 (ix2 b z) = outPairwise x0 x1 x2 x3 x4 x5 x6 x7 b z := by
  obtain rfl : z = 0 := Subsingleton.elim _ _
  rw [val_main_v27_apply, val_main_v26_apply, val_main_cst_2_apply, val_main_v25_apply, val_main_v24_apply,
    val_main_cst_1_apply, val_main_v23_apply, val_main_v22_apply, logistic_spelt, val_main_v21_apply,
    val_main_v18_apply, val_main_v20_apply, val_main_v19_apply]
  unfold outPairwise headRow
  refine congrArg Ideal.logistic (congrArg₂ (· + ·) (Finset.sum_congr rfl fun q _ => ?_)
    (congrArg x7 (funext fun a => Fin.ext (by
      match a with
      | ⟨0, _⟩ => rfl))))
  have e1 : lidx_main_v18 (ix2 b (0 : Fin 1)) q = ix2 b q := funext fun a => Fin.ext (by
    match a with
    | ⟨0, _⟩ => rfl
    | ⟨1, _⟩ => rfl)
  have e2 : ridx_main_v18 (ix2 b (0 : Fin 1)) q = ix2 q (0 : Fin 1) := funext fun a => Fin.ext (by
    match a with
    | ⟨0, _⟩ => rfl
    | ⟨1, _⟩ => rfl)
  rw [e1, e2, val_main_v17_apply, val_main_v14_apply, val_main_v16_apply, val_main_v15_apply]
  refine congrArg (· * x6 (ix2 q (0 : Fin 1))) (congrArg₂ (· + ·) (Finset.sum_congr rfl fun k _ => ?_)
    (congrArg x5 (funext fun a => Fin.ext (by
      match a with
      | ⟨0, _⟩ => rfl))))
  have e3 : lidx_main_v14 (ix2 b q) k = ix2 b k := funext fun a => Fin.ext (by
    match a with
    | ⟨0, _⟩ => rfl
    | ⟨1, _⟩ => rfl)
  have e4 : ridx_main_v14 (ix2 b q) k = ix2 k q := funext fun a => Fin.ext (by
    match a with
    | ⟨0, _⟩ => rfl
    | ⟨1, _⟩ => rfl)
  rw [e3, e4, pair_average]

end Cert.RelNet.RefRow

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«135319_j42434276884668_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.Finite.lean ====
/-
  From the precondition to real entries.

  The precondition is one word: the conjunction, over the eight argument arrays, of "every entry x of the array has
  |x| < +∞", each computed as a reduction by "and" from the constant 1 of the entrywise comparisons. If the word is 1
  then every conjunct is 1, and a conjunct equal to 1 says every entry of its array is a real number. The law of the
  pooled pair feature needs this of the two object arrays, the pair weight and the pair bias, the first four conjuncts.
-/
import proofs.«135319_j42434276884668_2_alg».proof.Pre_finite_inputs
import Idealize.ShloMosaic.Lib.Affine
import Idealize.ShloMosaic.Lib.ReduceAll
import proofs.«135319_j42434276884668_2_alg».proof.Proof.LibFiniteAll

noncomputable section

namespace Cert.RelNet.Finite

open Idealize.ShloMosaic Cert.LibRealSum Cert.Pre_finite_inputs Cert.Pre_finite_inputs.Facts

variable [Cert.Pre_finite_inputs.Facts]

/-- If the precondition's word is 1 then the two object arrays, the pair weight and the pair bias hold real numbers. -/
theorem reals_of_pre (a0 a1 : FVec Ideal S32x64x512 .f32) (a2 : FVec Ideal S1024x256 .f32) (a3 : FVec Ideal S256 .f32)
    (a4 : FVec Ideal S256x256 .f32) (a5 : FVec Ideal S256 .f32) (a6 : FVec Ideal S256x1 .f32) (a7 : FVec Ideal S1 .f32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨h3, h7⟩, h12⟩, h17⟩, -⟩, -⟩, -⟩, -⟩ := h0
  exact ⟨Cert.Lib.FiniteAll.all_real a0 _ _ _ _ h3, Cert.Lib.FiniteAll.all_real a1 _ _ _ _ h7,
    Cert.Lib.FiniteAll.all_real a2 _ _ _ _ h12, Cert.Lib.FiniteAll.all_real a3 _ _ _ _ h17⟩

end Cert.RelNet.Finite

end
-- ==== Proof.lean ====
/-
  A relation network's pair feature, pooled before or after the projection.

  The network takes two sets of 64 objects per batch row (each object a vector of 512 features), forms all 64 · 64
  ordered pairs, applies one affine map (the pair weight, 1024 × 256, and the pair bias) to the concatenation of each
  pair, averages over the pairs, and feeds the average through two dense layers and the logistic function.

  The reference does exactly that. The kernel uses that the affine map of a concatenation is the sum of the two halves'
  maps, that a summand constant along one of the two pair axes averages to itself, and that the average commutes with
  the projection: it averages each object set first (a sum over the 64 objects divided by 64), projects the two
  averages by the two halves of the pair weight, and adds the bias. Over the extended reals these steps are identities
  only where the numbers are real (they move factors across sums and cancel 64 · 64 against 4096), which the
  precondition supplies for the object arrays, the pair weight and the pair bias; the layers after the pooled feature
  are one expression of it on both sides, so they need nothing.

  The kernel's result array as a function of the arguments is assembled from its four blocks (`KernelArray`), each
  block's entries read from the body's operations (`KernelRow`); the reference's entries are read operation by
  operation from its run (`RefRow`); the two arrangements of the pooled feature are joined by a law of real arithmetic
  (`PairSpec`, `NetSpec`), whose hypotheses come from the precondition (`Finite`). The three programs' termination
  and the preservation of their arguments are the frame runs; the idealized kernel is the printed kernel's own text
  read over the extended reals, so nothing is owed for that conjunct.
-/
import proofs.«135319_j42434276884668_2_alg».proof.Defs
import proofs.«135319_j42434276884668_2_alg».proof.Proof.Gen.Kernel
import proofs.«135319_j42434276884668_2_alg».proof.Proof.Gen.Kernel.Skeleton
import proofs.«135319_j42434276884668_2_alg».proof.Proof.Gen.Kernel.Launch
import proofs.«135319_j42434276884668_2_alg».proof.Proof.Gen.Kernel.Points
import proofs.«135319_j42434276884668_2_alg».proof.Proof.Gen.Kernel.Frame
import proofs.«135319_j42434276884668_2_alg».proof.Proof.Gen.KernelIdeal
import proofs.«135319_j42434276884668_2_alg».proof.Proof.Gen.KernelIdeal.Skeleton
import proofs.«135319_j42434276884668_2_alg».proof.Proof.Gen.KernelIdeal.Launch
import proofs.«135319_j42434276884668_2_alg».proof.Proof.Gen.KernelIdeal.Points
import proofs.«135319_j42434276884668_2_alg».proof.Proof.Gen.KernelIdeal.Frame
import proofs.«135319_j42434276884668_2_alg».proof.Proof.Gen.ReferenceIdeal
import proofs.«135319_j42434276884668_2_alg».proof.Proof.Gen.Pre_finite_inputs
import proofs.«135319_j42434276884668_2_alg».proof.Proof.Gen.KernelIdeal.Value
import proofs.«135319_j42434276884668_2_alg».proof.Proof.Gen.ReferenceIdeal.Run
import proofs.«135319_j42434276884668_2_alg».proof.Proof.Gen.ReferenceIdeal.Read
import proofs.«135319_j42434276884668_2_alg».proof.Proof.NetSpec
import proofs.«135319_j42434276884668_2_alg».proof.Proof.KernelArray
import proofs.«135319_j42434276884668_2_alg».proof.Proof.RefRow
import proofs.«135319_j42434276884668_2_alg».proof.Proof.Finite
import Idealize.ShloMosaic.Adequacy
import Idealize.ShloMosaic.Init

noncomputable section

namespace Cert.Proof

open Idealize.ShloMosaic Idealize.SL.Sem Idealize.ShloMosaic.ValueIdx

/-- The printed kernel terminates, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the network's function of the arguments as their
    result: the kernel by its blocks, the reference entry by entry, the two arrangements of the pooled pair feature
    equal because the precondition makes the object arrays, the pair weight and the pair bias real. -/
theorem algebraic : Cert.algebraic_KernelIdeal_ReferenceIdeal := by
  intro m ρ m' ρ' hpre hagree
  refine ⟨fun c => Cert.RelNet.KernelArray.result m c, Cert.RelNet.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v27_eq, a0, a1, a2, a3, a4, a5, a6, a7]
  obtain ⟨r0, r1, r2, r3⟩ := Cert.RelNet.Finite.reals_of_pre _ _ _ _ _ _ _ _ (hpre c)
  funext i
  obtain ⟨b, z, rfl⟩ : ∃ (b : Fin 32) (z : Fin 1), i = ix2 b z := ⟨i 0, i 1, eq_ix2 i⟩
  rw [Cert.RelNet.RefRow.result_entry]
  exact Cert.RelNet.outPairwise_eq_outPooled _ _ _ _ _ _ _ _ r0 r1 r2 r3 b z

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
